-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_1)) (v1 : (c : Dev Cert.KernelIdeal.nD) → Buf (Elt Ideal) ((c.tc : Thread Cert.KernelIdeal.nD Cert.KernelIdeal.τ).loc Cert.KernelIdeal.main_v7_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_1) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg5 : FVec F S1024x1024 .f32) (main_arg6 : FVec F S1024 .f32) (main_arg7 : FVec F S1024x1024 .f32) (main_arg8 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_v33

def fn {F : FTy → Type} [FloatOps F] (main_arg0 : FVec F S8x2048x1024 .f32) (main_arg1 : FVec F S8x2048x1024 .f32) (main_arg2 : IVec S8x2048x2048 1) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1024 : Shape := ⟨2, ![1, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 18
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .i1⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8x2048x2048, .i32⟩
  | .hbm, ⟨16, _⟩ => ⟨S8x2048x2048, .f32⟩
  | .hbm, ⟨17, _⟩ => ⟨S8x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x256x2048, .i32⟩
  | .local _ .vmem, ⟨10, _⟩ => ⟨S1x256x2048, .i32⟩
  | .local _ .vmem, ⟨11, _⟩ => ⟨S1x256x2048, .f32⟩
  | .local _ .vmem, ⟨12, _⟩ => ⟨S1x256x2048, .f32⟩
  | .local _ .vmem, ⟨13, _⟩ => ⟨S1x256x1024, .f32⟩
  | .local _ .vmem, ⟨14, _⟩ => ⟨S1x256x1024, .f32⟩
  | .local _ .vmem, ⟨15, _⟩ => ⟨S2048x1024, .bf16⟩
  | .local _ .vmem, ⟨16, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  shapeCasts_S1024_S1x1024 : S1024.ShapeCasts S1x1024
  natLt_1_32 : 1 < 32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x2048_S1x256x2048 : S256x2048.ShapeCasts S1x256x2048
  shapeCasts_S256x1024_S1x256x1024 : S256x1024.ShapeCasts S1x256x1024
  dot_S2048x1024_S1024x1024_S2048x1024_1_1_0_0_n_n_wf : DotDims.WF S2048x1024 S1024x1024 S2048x1024 [1] [1] [0] [0] [] []
  dot_S256x1024_S1024x1024_S256x1024_1_1_0_0_n_n_wf : DotDims.WF S256x1024 S1024x1024 S256x1024 [1] [1] [0] [0] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x2048.size a ≤ S8x2048x2048.size a
  hwx0_8 : ∀ i : grid0.Coords, EltTy.bits .i32 = 32 ∨ (Rect.block (s := S8x2048x2048) S1x256x2048.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x2048.size a ≤ S8x2048x2048.size a
  hwx0_9 : ∀ i : grid0.Coords, EltTy.bits .f32 = 32 ∨ (Rect.block (s := S8x2048x2048) S1x256x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256x1024.size a ≤ S8x2048x1024.size a
  hwx0_10 : ∀ i : grid0.Coords, EltTy.bits .f32 = 32 ∨ (Rect.block (s := S8x2048x1024) S1x256x1024.size (cc0_transform_10 i) (hinb0_10 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7_0) S1x256x2048.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v7_1) S1x256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x2048, .i1⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x2048, .f32⟩
  | .hbm, ⟨30, _⟩ => ⟨S_, .f32⟩
  | .hbm, ⟨31, _⟩ => ⟨S8x2048, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S8x2048x2048, .f32⟩
  | .hbm, ⟨41, _⟩ => ⟨S8x2048x2048, .f32⟩
  | .hbm, ⟨42, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_call0_v0 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Attention.lean ====
/-
  Masked cross-attention over the extended reals, entry by entry.

  From activations `x`, `ctx : [8, 2048, 1024]`, three weight matrices `[1024, 1024]`, three bias rows `[1024]`
  and a boolean mask `[8, 2048, 2048]`:

    Q[b,i,f] = (Σₑ x[b,i,e] · Wq[f,e]) + bq[f]          K, V likewise from ctx
    s[b,i,j] = if mask[b,i,j] then fill else (Σ_d Q[b,i,d] · K[b,j,d]) · scale
    m[b,i]   = the largest s[b,i,·], starting from the −∞ literal
    w[b,i,j] = exp (s[b,i,j] − m[b,i])
    att[b,i,j] = w[b,i,j] / Σ_j' w[b,i,j']
    out[b,i,k] = Σ_j att[b,i,j] · V[b,j,k]

  The three float literals are kept as bit patterns: both programs spell the same words, so they are never
  evaluated. Nothing here distributes, cancels or reorders across an infinity, so no entry is assumed finite.
-/
import Idealize.ShloMosaic.PureOps.Ideal
import Idealize.ShloMosaic.Lib.ValueIdx

noncomputable section

namespace Cert.CrossAttention

open Idealize.ShloMosaic Idealize.ShloMosaic.ValueIdx
open scoped BigOperators

/-- Activations `[8, 2048, 1024]`, a weight matrix `[1024, 1024]`, a bias row `[1024]`, the mask `[8, 2048, 2048]`. -/
abbrev Act := (⟨3, ![8, 2048, 1024]⟩ : Shape).Idx → EReal
abbrev Wgt := (⟨2, ![1024, 1024]⟩ : Shape).Idx → EReal
abbrev Row := (⟨1, ![1024]⟩ : Shape).Idx → EReal
abbrev Msk := (⟨3, ![8, 2048, 2048]⟩ : Shape).Idx → BitVec 1

/-- `1024 ^ (-1/2) = 1/32`, the score scale; the value a masked score is replaced by; the row maximum's start. -/
def scale : EReal := Ideal.ofBits .f32 0x3D000000#32
def fill : EReal := Ideal.ofBits .f32 0xCE6E6B28#32
def negInf : EReal := Ideal.ofBits .f32 0xFF800000#32

/-- A linear projection with the weight's LAST axis contracted (`x @ Wᵀ + β`), at batch `b`, row `s`, feature `f`. -/
def proj (X : Act) (W : Wgt) (β : Row) (b : Fin 8) (s : Fin 2048) (f : Fin 1024) : EReal :=
  (∑ e : Fin 1024, X (ix3 b s e) * W (ix2 f e)) + β (ix1 f)

/-- One masked, scaled score from a query row and a key row. -/
def score (q k : Fin 1024 → EReal) (masked : BitVec 1) : EReal :=
  Scalar.select masked fill ((∑ d : Fin 1024, q d * k d) * scale)

/-- The largest score of a row, starting from the −∞ literal. -/
def rowMax (s : Fin 2048 → EReal) : EReal := (Finset.univ : Finset (Fin 2048)).fold max negInf s

/-- The unnormalised weight of column `j`, and the row's normalised weights. -/
def weight (s : Fin 2048 → EReal) (j : Fin 2048) : EReal := Ideal.exp (s j - rowMax s)
def softmax (s : Fin 2048 → EReal) (j : Fin 2048) : EReal := Ideal.div (weight s j) (∑ j' : Fin 2048, weight s j')

/-- Starting the maximum from its own start value again changes nothing: the fold is already above it. -/
theorem max_negInf_rowMax (s : Fin 2048 → EReal) : max negInf (rowMax s) = rowMax s :=
  max_eq_right ((Finset.le_fold_max negInf).2 (Or.inl le_rfl))

section
variable (x ctx : Act) (M : Msk) (Wq : Wgt) (bq : Row) (Wk : Wgt) (bk : Row) (Wv : Wgt) (bv : Row)

/-- The scores of query row `i` of batch `b` against every key row. -/
def scores (b : Fin 8) (i : Fin 2048) (j : Fin 2048) : EReal :=
  score (proj x Wq bq b i) (proj ctx Wk bk b j) (M (ix3 b i j))

/-- The attention weights and the attended values. -/
def att (b : Fin 8) (i j : Fin 2048) : EReal := softmax (scores x ctx M Wq bq Wk bk b i) j
def out (b : Fin 8) (i : Fin 2048) (k : Fin 1024) : EReal :=
  ∑ j : Fin 2048, att x ctx M Wq bq Wk bk b i j * proj ctx Wv bv b j k

/-- The same two results as whole arrays. -/
def attArr : (⟨3, ![8, 2048, 2048]⟩ : Shape).Idx → EReal := fun i => att x ctx M Wq bq Wk bk (i 0) (i 1) (i 2)
def outArr : (⟨3, ![8, 2048, 1024]⟩ : Shape).Idx → EReal := fun i => out x ctx M Wq bq Wk bk Wv bv (i 0) (i 1) (i 2)
end

end Cert.CrossAttention

end
-- ==== Proof.ReferenceAttention.lean ====
/-
  The reference computes the attention of `Attention.lean`: each of its stages, read at an index given by its
  coordinates, is the quantity of the same name there.

  The three projections are one stage written three times (a product contracting the weight's last axis, plus a bias
  row broadcast over batch and row). The scores contract the feature axis of Q and K inside one batch, are scaled
  and masked. The row maximum is a fold of `max` from −∞ over the key axis; the reference then takes the maximum
  with −∞ once more, which the fold already dominates. The weights are the exponentials of the distances below
  the maximum, the denominator their sum from an initial zero, the attention their quotient, and the output its
  product with V inside one batch.
-/
import proofs.«100121_j27101243638344_2_alg».proof.Proof.Gen.ReferenceIdeal.Read
import proofs.«100121_j27101243638344_2_alg».proof.Proof.Attention

noncomputable section

namespace Cert.ReferenceIdeal.RefValue

open Cert.ReferenceIdeal Cert.ReferenceIdeal.Gen Cert.ReferenceIdeal.Read Cert.CrossAttention
open Idealize.ShloMosaic Idealize.ShloMosaic.ValueIdx
open scoped BigOperators

/-! ## The indices the stages read, by coordinates -/

theorem lhs_proj (b : Fin 8) (s : Fin 2048) (f k : Fin 1024) : lidx_main_v0 (ix3 b s f) k = ix3 b s k :=
  funext fun a => match a with | ⟨0, _⟩ => rfl | ⟨1, _⟩ => rfl | ⟨2, _⟩ => rfl
theorem rhs_proj (b : Fin 8) (s : Fin 2048) (f k : Fin 1024) : ridx_main_v0 (ix3 b s f) k = ix2 f k :=
  funext fun a => match a with | ⟨0, _⟩ => rfl | ⟨1, _⟩ => rfl
theorem bias_idx (b : Fin 8) (s : Fin 2048) (f : Fin 1024) : idx_main_v1 (idx_main_v2 (ix3 b s f)) = ix1 f :=
  funext fun a => match a with | ⟨0, _⟩ => rfl
theorem lhs_score (b : Fin 8) (i j : Fin 2048) (k : Fin 1024) : lidx_main_v12 (ix3 b i j) k = ix3 b i k :=
  funext fun a => match a with | ⟨0, _⟩ => rfl | ⟨1, _⟩ => rfl | ⟨2, _⟩ => rfl
theorem rhs_score (b : Fin 8) (i j : Fin 2048) (k : Fin 1024) : ridx_main_v12 (ix3 b i j) k = ix3 b j k :=
  funext fun a => match a with | ⟨0, _⟩ => rfl | ⟨1, _⟩ => rfl | ⟨2, _⟩ => rfl
theorem row_idx (b : Fin 8) (i j : Fin 2048) : idx_main_v19 (idx_main_v20 (ix3 b i j)) = ix2 b i :=
  funext fun a => match a with | ⟨0, _⟩ => rfl | ⟨1, _⟩ => rfl
theorem sum_idx (b : Fin 8) (i k : Fin 2048) : idx_main_v23 (ix2 b i) k = ix3 b i k :=
  funext fun a => match a with | ⟨0, _⟩ => rfl | ⟨1, _⟩ => rfl | ⟨2, _⟩ => rfl
theorem den_idx (b : Fin 8) (i j : Fin 2048) : idx_main_v24 (idx_main_v25 (ix3 b i j)) = ix2 b i :=
  funext fun a => match a with | ⟨0, _⟩ => rfl | ⟨1, _⟩ => rfl
theorem lhs_out (b : Fin 8) (i : Fin 2048) (k : Fin 1024) (j : Fin 2048) : lidx_main_v27 (ix3 b i k) j = ix3 b i j :=
  funext fun a => match a with | ⟨0, _⟩ => rfl | ⟨1, _⟩ => rfl | ⟨2, _⟩ => rfl
theorem rhs_out (b : Fin 8) (i : Fin 2048) (k : Fin 1024) (j : Fin 2048) : ridx_main_v27 (ix3 b i k) j = ix3 b j k :=
  funext fun a => match a with | ⟨0, _⟩ => rfl | ⟨1, _⟩ => rfl | ⟨2, _⟩ => rfl

/-- The key axis is the one the two row reductions drop. -/
theorem keyAxis : S8x2048x2048.Reduces [2] S8x2048 := by decide

/-- A row index with the key coordinate put back. -/
theorem lift_row (b : Fin 8) (i : Fin 2048) (k : Fin (S8x2048x2048.size 2)) :
    keyAxis.lift (ix2 b i) k = ix3 b i (⟨k.val, k.isLt⟩ : Fin 2048) := by
  funext c; apply Fin.ext
  fin_cases c <;> rfl

/-! ## The stages -/

section
variable (x0 x1 : (⟨S8x2048x1024, .f32⟩ : BufTy).Contents (Elt Ideal)) (x2 : (⟨S8x2048x2048, .i1⟩ : BufTy).Contents (Elt Ideal))
  (x3 : (⟨S1024x1024, .f32⟩ : BufTy).Contents (Elt Ideal)) (x4 : (⟨S1024, .f32⟩ : BufTy).Contents (Elt Ideal))
  (x5 : (⟨S1024x1024, .f32⟩ : BufTy).Contents (Elt Ideal)) (x6 : (⟨S1024, .f32⟩ : BufTy).Contents (Elt Ideal))
  (x7 : (⟨S1024x1024, .f32⟩ : BufTy).Contents (Elt Ideal)) (x8 : (⟨S1024, .f32⟩ : BufTy).Contents (Elt Ideal))

/-- A projection: the contraction of the activation's and the weight's last axes, plus the bias of that feature. -/
theorem proj_stage (X : (⟨S8x2048x1024, .f32⟩ : BufTy).Contents (Elt Ideal)) (W : (⟨S1024x1024, .f32⟩ : BufTy).Contents (Elt Ideal))
    (β : (⟨S1024, .f32⟩ : BufTy).Contents (Elt Ideal)) (b : Fin 8) (s : Fin 2048) (f : Fin 1024) :
    val_main_v3 (F := Ideal) X W β (ix3 b s f) = proj X W β b s f := by
  rw [val_main_v3_apply, val_main_v0_apply, val_main_v2_apply, val_main_v1_apply, bias_idx]
  simp only [lhs_proj, rhs_proj]
  rfl

/-- The key and value projections are the same stage at other arguments. -/
theorem key_stage (X : (⟨S8x2048x1024, .f32⟩ : BufTy).Contents (Elt Ideal)) (W : (⟨S1024x1024, .f32⟩ : BufTy).Contents (Elt Ideal))
    (β : (⟨S1024, .f32⟩ : BufTy).Contents (Elt Ideal)) : val_main_v7 (F := Ideal) X W β = val_main_v3 (F := Ideal) X W β := rfl
theorem value_stage (X : (⟨S8x2048x1024, .f32⟩ : BufTy).Contents (Elt Ideal)) (W : (⟨S1024x1024, .f32⟩ : BufTy).Contents (Elt Ideal))
    (β : (⟨S1024, .f32⟩ : BufTy).Contents (Elt Ideal)) : val_main_v11 (F := Ideal) X W β = val_main_v3 (F := Ideal) X W β := rfl

/-- The masked, scaled scores. -/
theorem score_stage (b : Fin 8) (i j : Fin 2048) :
    val_main_v15 (F := Ideal) x0 x1 x2 x3 x4 x5 x6 (ix3 b i j) = scores x0 x1 x2 x3 x4 x5 x6 b i j := by
  rw [val_main_v15_apply, val_main_call0_v0_apply, val_main_cst_0_apply, val_main_v14_apply, val_main_v12_apply,
    val_main_v13_apply, val_main_cst_apply]
  simp only [lhs_score, rhs_score, key_stage, proj_stage]
  rfl

/-- The row maximum: the second maximum with −∞ is absorbed. -/
theorem rowMax_stage (b : Fin 8) (i : Fin 2048) :
    val_main_v18 (F := Ideal) x0 x1 x2 x3 x4 x5 x6 (ix2 b i) = rowMax (scores x0 x1 x2 x3 x4 x5 x6 b i) := by
  rw [val_main_v18_apply, val_main_v17_apply, val_main_cst_2_apply]
  unfold val_main_v16
  rw [Host.reduce_eq_fold_single FloatOps.maximumf _ _ reducesTo_S8x2048x2048_S8x2048_d2 keyAxis h_S_]
  have e : (val_main_v15 (F := Ideal) x0 x1 x2 x3 x4 x5 x6 ∘ keyAxis.lift (ix2 b i)) = scores x0 x1 x2 x3 x4 x5 x6 b i :=
    funext fun k => by
      show val_main_v15 (F := Ideal) x0 x1 x2 x3 x4 x5 x6 (keyAxis.lift (ix2 b i) k) = _
      rw [lift_row, score_stage]
      rfl
  rw [e]
  exact max_negInf_rowMax _

/-- The unnormalised weights. -/
theorem weight_stage (b : Fin 8) (i j : Fin 2048) :
    val_main_v22 (F := Ideal) x0 x1 x2 x3 x4 x5 x6 (ix3 b i j) = weight (scores x0 x1 x2 x3 x4 x5 x6 b i) j := by
  rw [val_main_v22_apply, val_main_v21_apply, val_main_v20_apply, val_main_v19_apply, row_idx, rowMax_stage, score_stage]
  rfl

/-- The denominator: the initial value is the zero word. -/
theorem den_stage (b : Fin 8) (i : Fin 2048) :
    val_main_v23 (F := Ideal) x0 x1 x2 x3 x4 x5 x6 (ix2 b i) = ∑ j : Fin 2048, weight (scores x0 x1 x2 x3 x4 x5 x6 b i) j := by
  rw [val_main_v23_apply, val_main_cst_3_apply]
  simp only [sum_idx, weight_stage]
  show Ideal.ofBits .f32 0x00000000#32 + _ = _
  rw [Ideal.ofBits_zero_f32, zero_add]

/-- The attention weights. -/
theorem att_stage (b : Fin 8) (i j : Fin 2048) :
    val_main_v26 (F := Ideal) x0 x1 x2 x3 x4 x5 x6 (ix3 b i j) = att x0 x1 x2 x3 x4 x5 x6 b i j := by
  rw [val_main_v26_apply, val_main_v25_apply, val_main_v24_apply, den_idx, den_stage, weight_stage]
  rfl

/-- The attended values. -/
theorem out_stage (b : Fin 8) (i : Fin 2048) (k : Fin 1024) :
    val_main_v27 (F := Ideal) x0 x1 x2 x3 x4 x5 x6 x7 x8 (ix3 b i k) = out x0 x1 x2 x3 x4 x5 x6 x7 x8 b i k := by
  rw [val_main_v27_apply]
  simp only [lhs_out, rhs_out, att_stage, value_stage, proj_stage]
  rfl

/-- The two results as whole arrays. -/
theorem att_eq : val_main_v26 (F := Ideal) x0 x1 x2 x3 x4 x5 x6 = attArr x0 x1 x2 x3 x4 x5 x6 :=
  funext fun i => by
    obtain ⟨b, r, j, rfl⟩ : ∃ (b : Fin 8) (r j : Fin 2048), i = ix3 b r j := ⟨i 0, i 1, i 2, eq_ix3 i⟩
    exact att_stage x0 x1 x2 x3 x4 x5 x6 b r j
theorem out_eq : val_main_v27 (F := Ideal) x0 x1 x2 x3 x4 x5 x6 x7 x8 = outArr x0 x1 x2 x3 x4 x5 x6 x7 x8 :=
  funext fun i => by
    obtain ⟨b, r, k, rfl⟩ : ∃ (b : Fin 8) (r : Fin 2048) (k : Fin 1024), i = ix3 b r k := ⟨i 0, i 1, i 2, eq_ix3 i⟩
    exact out_stage x0 x1 x2 x3 x4 x5 x6 x7 x8 b r k
end

end Cert.ReferenceIdeal.RefValue

end
-- ==== Proof.LibMatmulLastAxis.lean ====
/-
  A matrix product that contracts the LAST axis of both rank-2 operands (`x @ w.T`: an `M × K` left operand, an
  `N × K` right operand, an `M × N` result, dimension numbers `<[1], [1], [0], [0], [0, 0, 1, 0], [], []>`), read
  at one entry over the extended reals.

  Whatever record of dimension numbers carries those six lists, the left operand is read at row `p` of the result
  index and column `k` of the contraction, the right operand at row `q` and column `k`; the contraction index
  is one coordinate, so the sum over it is a sum over `Fin K`. Into a zero accumulator the product's entry
  `(p, q)` is therefore `∑ k, l (p, k) · r (q, k)`; into any accumulator it is the accumulator's entry plus that
  sum.
-/
import Idealize.ShloMosaic.PureOps.Ideal
import Idealize.ShloMosaic.PureOps.Ideal.Laws
import Idealize.ShloMosaic.Lib.ValueIdx

noncomputable section

namespace Idealize.ShloMosaic.MatmulLastAxis

open Idealize.ShloMosaic Idealize.ShloMosaic.ValueIdx
open scoped BigOperators

variable {M N K : Nat}

/-- The six lists of dimension numbers of `x @ w.T`. -/
structure IsLastAxis (D : DotDims ⟨2, ![M, K]⟩ ⟨2, ![N, K]⟩ ⟨2, ![M, N]⟩) : Prop where
  lc : D.lhsContracting = [1]
  rc : D.rhsContracting = [1]
  ln : D.lhsNonContracting = [0]
  rn : D.rhsNonContracting = [0]
  lb : D.lhsBatch = []
  rb : D.rhsBatch = []

variable {D : DotDims ⟨2, ![M, K]⟩ ⟨2, ![N, K]⟩ ⟨2, ![M, N]⟩}

theorem IsLastAxis.rank_contr (h : IsLastAxis D) : D.contr.rank = 1 := by
  rw [D.rank_contr, h.lc]; rfl

theorem IsLastAxis.size_contr (h : IsLastAxis D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsLastAxis.lhs_row (h : IsLastAxis D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's row is the result's column. -/
theorem IsLastAxis.rhs_row (h : IsLastAxis D) (j : (⟨2, ![M, N]⟩ : Shape).Idx) (k : D.contr.Idx) :
    (D.rhsIdx j k 0).val = (j 1).val := by
  have hb : (0 : Fin (⟨2, ![N, K]⟩ : Shape).rank) ∉ D.rhsBatch := by rw [h.rb]; exact List.not_mem_nil
  have hn : (0 : Fin (⟨2, ![N, K]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsLastAxis.contrEquiv (h : IsLastAxis D) : D.contr.Idx ≃ Fin K :=
  contrEquiv1 D K h.rank_contr h.size_contr

/-- The two operands' indices at result entry `(p, q)` and contraction coordinate `k`. -/
theorem IsLastAxis.lhsIdx_eq (h : IsLastAxis D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsLastAxis.rhsIdx_eq (h : IsLastAxis D) (p : Fin M) (q : Fin N) (k : Fin K) :
    D.rhsIdx (ix2 p q) (h.contrEquiv.symm k) = ix2 q k := by
  funext a
  apply Fin.ext
  match a with
  | ⟨0, _⟩ => exact h.rhs_row (ix2 p q) _
  | ⟨1, _⟩ =>
    show (D.rhsIdx (ix2 p q) (h.contrEquiv.symm k) 1).val = k.val
    rw [D.rhsIdx_val_of_single h.rc]
    exact contrEquiv1_symm_val D K h.rank_contr h.size_contr k

/-- The product into an accumulator, read at entry `(p, q)`: the accumulator there plus the sum over the shared last
    axis of the operands' products. -/
theorem matmul_apply (h : IsLastAxis D) {φ₁ φ₂ : FTy} (prec : Option ContractPrecision)
    (l : FVec Ideal ⟨2, ![M, K]⟩ φ₁) (r : FVec Ideal ⟨2, ![N, K]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 q k) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsLastAxis D) {φ₁ φ₂ : FTy} (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q)
      = ∑ k : Fin K, l (ix2 p k) * r (ix2 q k) := by
  rw [matmul_apply h]
  show Ideal.ofBits .f32 0x00000000#32 + _ = _
  rw [Ideal.ofBits_zero_f32, zero_add]

end Idealize.ShloMosaic.MatmulLastAxis

end
-- ==== Proof.LibMatmulPlain.lean ====
/-
  A plain matrix product (`p @ v`: an `M × K` left operand, a `K × N` right operand, an `M × N` result, dimension
  numbers `<[1], [0], [0], [1], [0, 0, 1, 1], [], []>`), read at one entry over the extended reals.

  Whatever record of dimension numbers carries those six lists, the left operand is read at row `p` of the result
  index and column `k` of the contraction, the right operand at row `k` and column `q`; the contraction index is
  one coordinate, so the sum over it is a sum over `Fin K`.  Into a zero accumulator the product's entry `(p, q)`
  is therefore `∑ k, l (p, k) · r (k, q)`; into any accumulator it is the accumulator's entry plus that sum.
-/
import Idealize.ShloMosaic.PureOps.Ideal
import Idealize.ShloMosaic.PureOps.Ideal.Laws
import Idealize.ShloMosaic.Lib.ValueIdx

noncomputable section

namespace Idealize.ShloMosaic.MatmulPlain

open Idealize.ShloMosaic Idealize.ShloMosaic.ValueIdx
open scoped BigOperators

variable {M N K : Nat}

/-- The six lists of dimension numbers of `p @ v`. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {D : DotDims ⟨2, ![M, K]⟩ ⟨2, ![K, N]⟩ ⟨2, ![M, N]⟩}

theorem IsPlain.rank_contr (h : IsPlain D) : D.contr.rank = 1 := by
  rw [D.rank_contr, h.lc]; rfl

theorem IsPlain.size_contr (h : IsPlain D) : D.contr.size ⟨0, by rw [h.rank_contr]; exact Nat.one_pos⟩ = K := by
  have e := D.size_contr 0 (by rw [h.lc]; exact Nat.one_pos)
  rw [e]
  simp only [h.lc]
  rfl

/-- The left operand's row is the result's row. -/
theorem IsPlain.lhs_row (h : IsPlain D) (j : (⟨2, ![M, N]⟩ : Shape).Idx) (k : D.contr.Idx) :
    (D.lhsIdx j k 0).val = (j 0).val := by
  have hb : (0 : Fin (⟨2, ![M, K]⟩ : Shape).rank) ∉ D.lhsBatch := by rw [h.lb]; exact List.not_mem_nil
  have hn : (0 : Fin (⟨2, ![M, K]⟩ : Shape).rank) ∈ D.lhsNonContracting := by rw [h.ln]; exact List.mem_singleton.mpr rfl
  have key : ∀ (a b : Nat) (ha : a < 2) (hb : b < 2), a = b → (j ⟨a, ha⟩).val = (j ⟨b, hb⟩).val :=
    fun a b ha hb e => by subst e; rfl
  unfold DotDims.lhsIdx
  rw [dif_neg hb, dif_pos hn]
  simp only [Fin.val_cast]
  exact key _ _ _ _ (by simp [h.lb, h.ln])

/-- The right operand's column is the result's column. -/
theorem IsPlain.rhs_col (h : IsPlain D) (j : (⟨2, ![M, N]⟩ : Shape).Idx) (k : D.contr.Idx) :
    (D.rhsIdx j k 1).val = (j 1).val := by
  have hb : (1 : Fin (⟨2, ![K, N]⟩ : Shape).rank) ∉ D.rhsBatch := by rw [h.rb]; exact List.not_mem_nil
  have hn : (1 : Fin (⟨2, ![K, N]⟩ : Shape).rank) ∈ D.rhsNonContracting := by rw [h.rn]; exact List.mem_singleton.mpr rfl
  have key : ∀ (a b : Nat) (ha : a < 2) (hb : b < 2), a = b → (j ⟨a, ha⟩).val = (j ⟨b, hb⟩).val :=
    fun a b ha hb e => by subst e; rfl
  unfold DotDims.rhsIdx
  rw [dif_neg hb, dif_pos hn]
  simp only [Fin.val_cast]
  exact key _ _ _ _ (by simp [h.lb, h.ln, h.rn])

/-- The contraction index is one coordinate below `K`. -/
def IsPlain.contrEquiv (h : IsPlain D) : D.contr.Idx ≃ Fin K :=
  contrEquiv1 D K h.rank_contr h.size_contr

/-- The two operands' indices at result entry `(p, q)` and contraction coordinate `k`. -/
theorem IsPlain.lhsIdx_eq (h : IsPlain D) (p : Fin M) (q : Fin N) (k : Fin K) :
    D.lhsIdx (ix2 p q) (h.contrEquiv.symm k) = ix2 p k := by
  funext a
  apply Fin.ext
  match a with
  | ⟨0, _⟩ => exact h.lhs_row (ix2 p q) _
  | ⟨1, _⟩ =>
    show (D.lhsIdx (ix2 p q) (h.contrEquiv.symm k) 1).val = k.val
    rw [D.lhsIdx_val_of_single h.lc]
    exact contrEquiv1_symm_val D K h.rank_contr h.size_contr k

theorem IsPlain.rhsIdx_eq (h : IsPlain D) (p : Fin M) (q : Fin N) (k : Fin K) :
    D.rhsIdx (ix2 p q) (h.contrEquiv.symm k) = ix2 k q := by
  funext a
  apply Fin.ext
  match a with
  | ⟨0, _⟩ =>
    show (D.rhsIdx (ix2 p q) (h.contrEquiv.symm k) 0).val = k.val
    rw [D.rhsIdx_val_of_single h.rc]
    exact contrEquiv1_symm_val D K h.rank_contr h.size_contr k
  | ⟨1, _⟩ => exact h.rhs_col (ix2 p q) _

/-- The product into an accumulator, read at entry `(p, q)`: the accumulator there plus the sum over the shared
    axis of the operands' products. -/
theorem matmul_apply (h : IsPlain D) {φ₁ φ₂ : FTy} (prec : Option ContractPrecision)
    (l : FVec Ideal ⟨2, ![M, K]⟩ φ₁) (r : FVec Ideal ⟨2, ![K, N]⟩ φ₂) (acc : FVec Ideal ⟨2, ![M, N]⟩ .f32)
    (p : Fin M) (q : Fin N) :
    FloatOps.matmul D prec l r acc (ix2 p q) = acc (ix2 p q) + ∑ k : Fin K, l (ix2 p k) * r (ix2 k q) := by
  rw [Ideal.matmul_apply, ← Equiv.sum_comp h.contrEquiv.symm]
  refine congrArg (acc (ix2 p q) + ·) (Finset.sum_congr rfl fun k _ => ?_)
  rw [h.lhsIdx_eq, h.rhsIdx_eq]

/-- Into the zero accumulator: the sum alone. -/
theorem matmul_zero_apply (h : IsPlain D) {φ₁ φ₂ : FTy} (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q)
      = ∑ k : Fin K, l (ix2 p k) * r (ix2 k q) := by
  rw [matmul_apply h]
  show Ideal.ofBits .f32 0x00000000#32 + _ = _
  rw [Ideal.ofBits_zero_f32, zero_add]

end Idealize.ShloMosaic.MatmulPlain

end
-- ==== Proof.LibColumnLayout.lean ====
/-
  Two layout operations that only move indices, read at an index given by its coordinates: a vector cast to a
  one-column matrix, and a one-column matrix broadcast along its rows.  Together they carry a per-row quantity
  (a row maximum, a row sum, its reciprocal) kept as a `[a, 1]` column back onto every entry of its row.
-/
import Idealize.ShloMosaic.Lib.ValueIdx
import Idealize.ShloMosaic.Lib.Pipeline.Value

noncomputable section

namespace Cert.ColumnLayout

open Idealize.ShloMosaic Idealize.ShloMosaic.ValueIdx

/-- A vector cast to a one-column matrix reads, at `(i, 0)`, the vector at `i`. -/
theorem shapeCast_a_a1_apply {a : ℕ} {α : Type} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A one-column matrix broadcast along its rows reads, at `(i, j)`, the column at `(i, 0)`. -/
theorem broadcastTo_a1_ab_apply {a b : ℕ} {α : Type} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      have := i.isLt
      split <;> omega
    | ⟨1, _⟩ => by
      show 0 = if (1 : ℕ) = 1 then 0 else j.val
      rw [if_pos rfl])

end Cert.ColumnLayout

end
-- ==== Proof.TileArithmetic.lean ====
/-
  The arithmetic of one grid point, entry by entry over the extended reals.

  A grid point holds 256 query rows of one batch. Its body computes, on whole tiles,

    * a linear map with the weight's last axis contracted plus a bias row (the 256 query rows; at the first point
      of a batch also all 2048 key rows and value rows of that batch),
    * the 256 × 2048 scores: the product of the query tile with the key tile along the features, scaled, with the
      masked entries replaced,
    * a row-wise softmax of the scores: row maximum, exponential of the distance below it, row sum, quotient,
    * the product of the 256 × 2048 weights with the 2048 × 1024 value tile.

  Each stored value is restated as a composition of these four tile functions (the restatement holds by
  unfolding), and each tile function is read at an entry `(r, c)`: a sum over the contracted coordinate, a fold of
  `max` and a sum over the 2048 key positions. A change of float format is the identity here, and a cast between
  a `[1, a, b]` block and an `[a, b]` tile only renames the index.
-/
import proofs.«100121_j27101243638344_2_alg».proof.Proof.Gen.KernelIdeal.Skeleton
import proofs.«100121_j27101243638344_2_alg».proof.Proof.Attention
import proofs.«100121_j27101243638344_2_alg».proof.Proof.LibMatmulLastAxis
import proofs.«100121_j27101243638344_2_alg».proof.Proof.LibMatmulPlain
import proofs.«100121_j27101243638344_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Cert.CrossAttention
open Idealize.ShloMosaic Idealize.ShloMosaic.ValueIdx
open scoped BigOperators

/-! ## The dimension numbers of the four products -/

theorem lastAxis_query : MatmulLastAxis.IsLastAxis dot_S256x1024_S1024x1024_S256x1024_1_1_0_0_n_n := ⟨rfl, rfl, rfl, rfl, rfl, rfl⟩
theorem lastAxis_keyValue : MatmulLastAxis.IsLastAxis dot_S2048x1024_S1024x1024_S2048x1024_1_1_0_0_n_n := ⟨rfl, rfl, rfl, rfl, rfl, rfl⟩
theorem lastAxis_scores : MatmulLastAxis.IsLastAxis dot_S256x1024_S2048x1024_S256x2048_1_1_0_0_n_n := ⟨rfl, rfl, rfl, rfl, rfl, rfl⟩
theorem plain_out : MatmulPlain.IsPlain dot_S256x2048_S2048x1024_S256x1024_1_0_0_1_n_n := ⟨rfl, rfl, rfl, rfl, rfl, rfl⟩

/-! ## A block with a leading unit axis read as a tile -/

/-- Row `r`, column `e` of a `[1, a, b]` block cast to an `[a, b]` tile (and truncated, which changes nothing). -/
def tileOf {a b : Nat} (v : FVec Ideal ⟨3, ![1, a, b]⟩ .f32) (h : (⟨3, ![1, a, b]⟩ : Shape).ShapeCasts ⟨2, ![a, b]⟩) :
    FVec Ideal ⟨2, ![a, b]⟩ .bf16 := truncf .bf16 (shapeCast ⟨2, ![a, b]⟩ v h) bitsLt_bf16_f32

theorem tileOf_apply {a b : Nat} (v : FVec Ideal ⟨3, ![1, a, b]⟩ .f32) (h : (⟨3, ![1, a, b]⟩ : Shape).ShapeCasts ⟨2, ![a, b]⟩)
    (r : Fin a) (e : Fin b) : tileOf v h (ix2 r e) = v (ix3 (0 : Fin 1) r e) :=
  shapeCast_1ab_ab_apply v h r e

/-! ## The linear map `x @ Wᵀ + β` on a tile of `R` rows -/

/-- `X @ Wᵀ` into a zero accumulator, plus the bias row broadcast over the rows. -/
def linear {R : Nat} (D : DotDims ⟨2, ![R, 1024]⟩ ⟨2, ![1024, 1024]⟩ ⟨2, ![R, 1024]⟩)
    (hb : (⟨2, ![1, 1024]⟩ : Shape).Broadcasts ⟨2, ![R, 1024]⟩) (X : FVec Ideal ⟨2, ![R, 1024]⟩ .bf16)
    (W : FVec Ideal ⟨2, ![1024, 1024]⟩ .bf16) (β : FVec Ideal ⟨2, ![1, 1024]⟩ .f32) : FVec Ideal ⟨2, ![R, 1024]⟩ .f32 :=
  addf (matmul D none X (shapeCast ⟨2, ![1024, 1024]⟩ W shapeCasts_S1024x1024_S1024x1024) (constant ⟨2, ![R, 1024]⟩ .f32 0x00000000#32))
    (broadcastTo ⟨2, ![R, 1024]⟩ (shapeCast ⟨2, ![1, 1024]⟩ β shapeCasts_S1x1024_S1x1024) hb)

theorem linear_apply {R : Nat} {D : DotDims ⟨2, ![R, 1024]⟩ ⟨2, ![1024, 1024]⟩ ⟨2, ![R, 1024]⟩} (hD : MatmulLastAxis.IsLastAxis D)
    (hb : (⟨2, ![1, 1024]⟩ : Shape).Broadcasts ⟨2, ![R, 1024]⟩) (X : FVec Ideal ⟨2, ![R, 1024]⟩ .bf16)
    (W : FVec Ideal ⟨2, ![1024, 1024]⟩ .bf16) (β : FVec Ideal ⟨2, ![1, 1024]⟩ .f32) (r : Fin R) (f : Fin 1024) :
    linear D hb X W β (ix2 r f) = (∑ e : Fin 1024, X (ix2 r e) * W (ix2 f e)) + β (ix2 (0 : Fin 1) f) := by
  show FloatOps.matmul D none X (shapeCast ⟨2, ![1024, 1024]⟩ W shapeCasts_S1024x1024_S1024x1024) (constant ⟨2, ![R, 1024]⟩ .f32 0x00000000#32) (ix2 r f)
      + broadcastTo ⟨2, ![R, 1024]⟩ (shapeCast ⟨2, ![1, 1024]⟩ β shapeCasts_S1x1024_S1x1024) hb (ix2 r f) = _
  rw [MatmulLastAxis.matmul_zero_apply hD, broadcastTo_1b_ab_apply, shapeCast_self, shapeCast_self]

/-! ## The scores of a query tile against a key tile -/

/-- The product along the features into a zero accumulator, scaled; a masked entry replaced by the fill value. -/
def scoreTile (q : FVec Ideal S256x1024 .f32) (k : FVec Ideal S2048x1024 .bf16) (mk : IVec S1x256x2048 32) : FVec Ideal S256x2048 .f32 :=
  select (cmpi .ne (shapeCast S256x2048 mk shapeCasts_S1x256x2048_S256x2048) (constantI S256x2048 32 0#32))
    (broadcast S256x2048 (Scalar.ofBits (F := Ideal) .f32 0xCE6E6B28#32))
    (mulf (matmul dot_S256x1024_S2048x1024_S256x2048_1_1_0_0_n_n none (truncf .bf16 q bitsLt_bf16_f32) k (constant S256x2048 .f32 0x00000000#32))
      (broadcast S256x2048 (Scalar.ofBits (F := Ideal) .f32 0x3D000000#32)))

theorem scoreTile_apply (q : FVec Ideal S256x1024 .f32) (k : FVec Ideal S2048x1024 .bf16) (mk : IVec S1x256x2048 32)
    (r : Fin 256) (j : Fin 2048) :
    scoreTile q k mk (ix2 r j)
      = score (fun d => q (ix2 r d)) (fun d => k (ix2 j d)) (Scalar.cmpi .ne (mk (ix3 (0 : Fin 1) r j)) 0#32) := by
  have hm : shapeCast S256x2048 mk shapeCasts_S1x256x2048_S256x2048 (ix2 r j) = mk (ix3 (0 : Fin 1) r j) :=
    shapeCast_1ab_ab_apply mk _ r j
  have hp : FloatOps.matmul dot_S256x1024_S2048x1024_S256x2048_1_1_0_0_n_n none (truncf .bf16 q bitsLt_bf16_f32) k
      (constant S256x2048 .f32 0x00000000#32) (ix2 r j) = ∑ d : Fin 1024, q (ix2 r d) * k (ix2 j d) :=
    MatmulLastAxis.matmul_zero_apply lastAxis_scores none _ k r j
  show Scalar.select (Scalar.cmpi .ne (shapeCast S256x2048 mk shapeCasts_S1x256x2048_S256x2048 (ix2 r j)) 0#32) _
      (FloatOps.matmul dot_S256x1024_S2048x1024_S256x2048_1_1_0_0_n_n none (truncf .bf16 q bitsLt_bf16_f32) k
        (constant S256x2048 .f32 0x00000000#32) (ix2 r j) * _) = _
  rw [hm, hp]
  rfl

/-! ## The row-wise softmax of a score tile -/

/-- A per-row quantity kept as a vector, carried back onto every entry of its row. -/
def overRow (v : FVec Ideal S256 .f32) : FVec Ideal S256x2048 .f32 :=
  broadcastTo S256x2048 (shapeCast S256x1 v shapeCasts_S256_S256x1) broadcasts_S256x1_S256x2048

theorem overRow_apply (v : FVec Ideal S256 .f32) (r : Fin 256) (j : Fin 2048) : overRow v (ix2 r j) = v (ix1 r) :=
  (Cert.ColumnLayout.broadcastTo_a1_ab_apply _ broadcasts_S256x1_S256x2048 r j).trans
    (Cert.ColumnLayout.shapeCast_a_a1_apply v shapeCasts_S256_S256x1 r 0)

/-- Row `r` with key position `k` put back. -/
theorem lift_key (r : Fin 256) (k : Fin (S256x2048.size 1)) :
    reduces_S256x2048_S256.lift (ix1 r) k = ix2 r (⟨k.val, k.isLt⟩ : Fin 2048) := by
  funext c; apply Fin.ext
  fin_cases c <;> rfl

/-- The row maxima, from −∞. -/
def rowMaxima (s : FVec Ideal S256x2048 .f32) : FVec Ideal S256 .f32 :=
  multiReduction .maximumf [1] S256 s 0xFF800000#32 reduces_S256x2048_S256 (.inl rfl) rfl

theorem rowMaxima_apply (s : FVec Ideal S256x2048 .f32) (r : Fin 256) :
    rowMaxima s (ix1 r) = rowMax (fun j => s (ix2 r j)) := by
  refine (Ideal.multiReduction_maximumf_single s 0xFF800000#32 reduces_S256x2048_S256 (.inl rfl) rfl (ix1 r)).trans ?_
  have e : (s ∘ reduces_S256x2048_S256.lift (ix1 r)) = fun j : Fin 2048 => s (ix2 r j) :=
    funext fun k => congrArg s (lift_key r k)
  rw [e]
  rfl

/-- The row sums, from zero. -/
def rowSums (w : FVec Ideal S256x2048 .f32) : FVec Ideal S256 .f32 :=
  multiReduction .add [1] S256 w 0x00000000#32 reduces_S256x2048_S256 (.inl rfl) rfl

theorem rowSums_apply (w : FVec Ideal S256x2048 .f32) (r : Fin 256) :
    rowSums w (ix1 r) = ∑ j : Fin 2048, w (ix2 r j) := by
  refine (Ideal.multiReduction_add_single w 0x00000000#32 reduces_S256x2048_S256 (.inl rfl) rfl (ix1 r)).trans ?_
  exact Finset.sum_congr rfl fun k _ => congrArg w (lift_key r k)

/-- The exponentials of the distances below the row maximum, and their quotient by the row sum. -/
def weightTile (s : FVec Ideal S256x2048 .f32) : FVec Ideal S256x2048 .f32 := exp (subf s (overRow (rowMaxima s)))
def softmaxTile (s : FVec Ideal S256x2048 .f32) : FVec Ideal S256x2048 .f32 :=
  divf (weightTile s) (overRow (rowSums (weightTile s)))

theorem weightTile_apply (s : FVec Ideal S256x2048 .f32) (r : Fin 256) (j : Fin 2048) :
    weightTile s (ix2 r j) = weight (fun j' => s (ix2 r j')) j := by
  show Ideal.exp (s (ix2 r j) - overRow (rowMaxima s) (ix2 r j)) = _
  rw [overRow_apply, rowMaxima_apply]
  rfl

theorem softmaxTile_apply (s : FVec Ideal S256x2048 .f32) (r : Fin 256) (j : Fin 2048) :
    softmaxTile s (ix2 r j) = softmax (fun j' => s (ix2 r j')) j := by
  show Ideal.div (weightTile s (ix2 r j)) (overRow (rowSums (weightTile s)) (ix2 r j)) = _
  rw [overRow_apply, rowSums_apply, weightTile_apply]
  simp only [weightTile_apply]
  rfl

/-! ## The product of the weights with the value tile -/

def attend (w : FVec Ideal S256x2048 .f32) (v : FVec Ideal S2048x1024 .bf16) : FVec Ideal S256x1024 .f32 :=
  matmul dot_S256x2048_S2048x1024_S256x1024_1_0_0_1_n_n none (truncf .bf16 w bitsLt_bf16_f32) v (constant S256x1024 .f32 0x00000000#32)

theorem attend_apply (w : FVec Ideal S256x2048 .f32) (v : FVec Ideal S2048x1024 .bf16) (r : Fin 256) (k : Fin 1024) :
    attend w v (ix2 r k) = ∑ j : Fin 2048, w (ix2 r j) * v (ix2 j k) :=
  MatmulPlain.matmul_zero_apply plain_out none _ v r k

/-! ## The body's stored values, restated -/

section
variable (x : FVec Ideal S1x256x1024 .f32) (ctx : FVec Ideal S1x2048x1024 .f32) (wq wk wv : FVec Ideal S1024x1024 .bf16)
  (bq bk bv : FVec Ideal S1x1024 .f32) (mk : IVec S1x256x2048 32) (kS vS : FVec Ideal S2048x1024 .bf16)

/-- The query tile of the point. -/
def queryTile : FVec Ideal S256x1024 .f32 :=
  linear dot_S256x1024_S1024x1024_S256x1024_1_1_0_0_n_n broadcasts_S1x1024_S256x1024 (tileOf x shapeCasts_S1x256x1024_S256x1024) wq bq

theorem queryTile_apply (r : Fin 256) (f : Fin 1024) :
    queryTile x wq bq (ix2 r f) = (∑ e : Fin 1024, x (ix3 (0 : Fin 1) r e) * wq (ix2 f e)) + bq (ix2 (0 : Fin 1) f) := by
  unfold queryTile
  rw [linear_apply lastAxis_query]
  simp only [tileOf_apply]

/-- What the first point of a batch stores as keys (and, with the other weight and bias, as values). -/
theorem keyStore_eq : k0_pay4 (F := Ideal) ctx wk bk
    = linear dot_S2048x1024_S1024x1024_S2048x1024_1_1_0_0_n_n broadcasts_S1x1024_S2048x1024 (tileOf ctx shapeCasts_S1x2048x1024_S2048x1024) wk bk :=
  shapeCast_self _ _
theorem valueStore_eq : k0_pay5 (F := Ideal) ctx wv bv
    = linear dot_S2048x1024_S1024x1024_S2048x1024_1_1_0_0_n_n broadcasts_S1x1024_S2048x1024 (tileOf ctx shapeCasts_S1x2048x1024_S2048x1024) wv bv :=
  shapeCast_self _ _

theorem keyStore_apply (s : Fin 2048) (f : Fin 1024) :
    k0_pay4 (F := Ideal) ctx wk bk (ix2 s f) = (∑ e : Fin 1024, ctx (ix3 (0 : Fin 1) s e) * wk (ix2 f e)) + bk (ix2 (0 : Fin 1) f) := by
  rw [keyStore_eq, linear_apply lastAxis_keyValue]
  simp only [tileOf_apply]
theorem valueStore_apply (s : Fin 2048) (f : Fin 1024) :
    k0_pay5 (F := Ideal) ctx wv bv (ix2 s f) = (∑ e : Fin 1024, ctx (ix3 (0 : Fin 1) s e) * wv (ix2 f e)) + bv (ix2 (0 : Fin 1) f) := by
  rw [valueStore_eq, linear_apply lastAxis_keyValue]
  simp only [tileOf_apply]

/-- The attention weights of the point's 256 rows, from the key tile `kS` the scratch holds. -/
theorem weights_eq : k0_pay6 (F := Ideal) x wq bq kS mk = softmaxTile (scoreTile (queryTile x wq bq) kS mk) := rfl

theorem weights_apply (r : Fin 256) (j : Fin 2048) :
    k0_pay6 (F := Ideal) x wq bq kS mk (ix2 r j)
      = softmax (fun j' => score (fun d => queryTile x wq bq (ix2 r d)) (fun d => kS (ix2 j' d))
          (Scalar.cmpi .ne (mk (ix3 (0 : Fin 1) r j')) 0#32)) j := by
  rw [weights_eq, softmaxTile_apply]
  simp only [scoreTile_apply]

/-- The two blocks the point writes back: the weights, and their product with the value tile `vS`. -/
theorem attBlock_apply (w : FVec Ideal S256x2048 .f32) (u : Fin 1) (r : Fin 256) (j : Fin 2048) :
    k0_pay1 (F := Ideal) w (ix3 u r j) = w (ix2 r j) :=
  shapeCast_ab_1ab_apply w shapeCasts_S256x2048_S1x256x2048 u r j

theorem outBlock_apply (w : FVec Ideal S256x2048 .f32) (u : Fin 1) (r : Fin 256) (k : Fin 1024) :
    k0_pay2 (F := Ideal) vS w (ix3 u r k) = ∑ j : Fin 2048, w (ix2 r j) * vS (ix2 j k) :=
  (shapeCast_ab_1ab_apply (attend w vS) shapeCasts_S256x1024_S1x256x1024 u r k).trans (attend_apply w vS r k)
end

end Cert.KernelIdeal.Tile

end
-- ==== Proof.TilePieces.lean ====
/-
  What one run of the body leaves behind, in each of its two cases, as values of the blocks it was handed.

  At the first query tile of a batch the body stores the batch's key tile and value tile into the two scratch
  buffers and then reads them back; at every other tile it reads what the scratch already holds. In both cases it
  then stores the 256 × 2048 attention weights of the tile and their product with the value tile. Every store
  covers its whole buffer and every load reads a whole buffer, so each buffer ends holding exactly the one value
  stored into it, and a load that follows a store of the same buffer reads the stored value.
-/
import proofs.«100121_j27101243638344_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first query tile of a batch: keys and values are built from the context block -/

/-- The key scratch ends holding the key tile of the context block. -/
theorem keys_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x256x2048 .i32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (x8 : Vec F S1x256x2048 .i32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay4 x1 x3 x6 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread,
    harg8.read_unread, harg9.read_unread, harg10.read_unread, harg13.read_unread, harg14.read_unread,
    View.ld_unit_zero (S := S1x256x1024) hz3, View.ld_unit_zero (S := S1x2048x1024) hz3, View.ld_unit_zero (S := S1024x1024) hz2,
    View.ld_unit_zero (S := S1x1024) hz2, View.ld_unit_zero (S := S1x256x2048) hz3, View.ld_unit_zero (S := S2048x1024) hz2]

/-- The value scratch ends holding the value tile of the context block. -/
theorem values_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x256x2048 .i32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (x8 : Vec F S1x256x2048 .i32) :
    sout0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay5 x1 x4 x7 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz2]
  simp only [View.readAt_eq_ld, harg2.read_unread, harg3.read_unread, harg4.read_unread, harg5.read_unread, harg6.read_unread, harg7.read_unread,
    harg8.read_unread, harg9.read_unread, harg10.read_unread, harg13.read_unread, harg14.read_unread,
    View.ld_unit_zero (S := S1x256x1024) hz3, View.ld_unit_zero (S := S1x2048x1024) hz3, View.ld_unit_zero (S := S1024x1024) hz2,
    View.ld_unit_zero (S := S1x1024) hz2, View.ld_unit_zero (S := S1x256x2048) hz3, View.ld_unit_zero (S := S2048x1024) hz2]

/-- The attention block: the weights of the tile's rows against the keys just built. -/
theorem att_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x256x2048 .i32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (x8 : Vec F S1x256x2048 .i32) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay1 (k0_pay6 x0 x2 x5 (k0_pay4 x1 x3 x6) x8) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz3]
  simp only [View.readCov_unit_zero (S := S2048x1024) _ hz2, View.readAt_eq_ld, harg2.read_unread, harg3.read_unread, harg4.read_unread, harg5.read_unread, harg6.read_unread, harg7.read_unread,
    harg8.read_unread, harg9.read_unread, harg10.read_unread, harg13.read_unread, harg14.read_unread,
    View.ld_unit_zero (S := S1x256x1024) hz3, View.ld_unit_zero (S := S1x2048x1024) hz3, View.ld_unit_zero (S := S1024x1024) hz2,
    View.ld_unit_zero (S := S1x1024) hz2, View.ld_unit_zero (S := S1x256x2048) hz3, View.ld_unit_zero (S := S2048x1024) hz2]

/-- The output block: those weights times the values just built. -/
theorem out_first (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x256x2048 .i32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S2048x1024 .bf16) (harg13 : arg13.IsWhole) (arg14 : Memref sig .tc .vmem S2048x1024 .bf16) (harg14 : arg14.IsWhole) (hc0 : cond0_0 i) (x0 : Vec F S1x256x1024 .f32) (x1 : Vec F S1x2048x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (x8 : Vec F S1x256x2048 .i32) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = k0_pay2 (k0_pay5 x1 x4 x7) (k0_pay6 x0 x2 x5 (k0_pay4 x1 x3 x6) x8) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8)]
  unfold kernelRun0_A
  dsimp only
  sl_unfold_words
  rw [View.canon_unit_zero hz3]
  simp only [View.readCov_unit_zero (S := S2048x1024) _ hz2, View.readAt_eq_ld, harg2.read_unread, harg3.read_unread, harg4.read_unread, harg5.read_unread, harg6.read_unread, harg7.read_unread,
    harg8.read_unread, harg9.read_unread, harg10.read_unread, harg13.read_unread, harg14.read_unread,
    View.ld_unit_zero (S := S1x256x1024) hz3, View.ld_unit_zero (S := S1x2048x1024) hz3, View.ld_unit_zero (S := S1024x1024) hz2,
    View.ld_unit_zero (S := S1x1024) hz2, View.ld_unit_zero (S := S1x256x2048) hz3, View.ld_unit_zero (S := S2048x1024) hz2]

/-! ## Every other query tile: keys and values are what the scratch already holds -/

/-- The attention block against the held keys `xs0`. -/
theorem att_later (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x256x2048 .i32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S2048x1024 .bf16) (harg13 : arg13.IsWhole) (arg14 : Memref sig .tc .vmem S2048x1024 .bf16) (harg14 : arg14.IsWhole) (hc0 : ¬cond0_0 i) (x0 : Vec F S1x256x1024 .f32) (x1 : Vec F S1x2048x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (x8 : Vec F S1x256x2048 .i32) (xs0 xs1 : Vec F S2048x1024 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 = k0_pay1 (k0_pay6 x0 x2 x5 xs0 x8) := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    harg8.read_unread, harg9.read_unread, harg10.read_unread, harg13.read_unread, harg14.read_unread,
    View.ld_unit_zero (S := S1x256x1024) hz3, View.ld_unit_zero (S := S1x2048x1024) hz3, View.ld_unit_zero (S := S1024x1024) hz2,
    View.ld_unit_zero (S := S1x1024) hz2, View.ld_unit_zero (S := S1x256x2048) hz3, View.ld_unit_zero (S := S2048x1024) hz2]

/-- The output block: those weights times the held values `xs1`. -/
theorem out_later (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x256x2048 .i32) (harg10 : arg10.IsWhole) (arg11 : Memref sig .tc .vmem S1x256x2048 .f32) (harg11 : arg11.IsWhole) (arg12 : Memref sig .tc .vmem S1x256x1024 .f32) (harg12 : arg12.IsWhole) (arg13 : Memref sig .tc .vmem S2048x1024 .bf16) (harg13 : arg13.IsWhole) (arg14 : Memref sig .tc .vmem S2048x1024 .bf16) (harg14 : arg14.IsWhole) (hc0 : ¬cond0_0 i) (x0 : Vec F S1x256x1024 .f32) (x1 : Vec F S1x2048x1024 .f32) (x2 : Vec F S1024x1024 .bf16) (x3 : Vec F S1024x1024 .bf16) (x4 : Vec F S1024x1024 .bf16) (x5 : Vec F S1x1024 .f32) (x6 : Vec F S1x1024 .f32) (x7 : Vec F S1x1024 .f32) (x8 : Vec F S1x256x2048 .i32) (xs0 xs1 : Vec F S2048x1024 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1 = k0_pay2 xs1 (k0_pay6 x0 x2 x5 xs0 x8) := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 xs1)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    harg8.read_unread, harg9.read_unread, harg10.read_unread, harg13.read_unread, harg14.read_unread,
    View.ld_unit_zero (S := S1x256x1024) hz3, View.ld_unit_zero (S := S1x2048x1024) hz3, View.ld_unit_zero (S := S1024x1024) hz2,
    View.ld_unit_zero (S := S1x1024) hz2, View.ld_unit_zero (S := S1x256x2048) hz3, View.ld_unit_zero (S := S2048x1024) hz2]

end Cert.KernelIdeal.Pieces

end
-- ==== Proof.InputBlocks.lean ====
/-
  What the body is handed at grid point `t`, entry by entry, in terms of the argument arrays.

  The 64 points run over 8 batches × 8 query tiles of 256 rows, the tile index moving fastest: point `t` is batch
  `t / 8`, tile `t % 8`. The activation block is rows `256·(t % 8) …` of batch `t / 8`; the context block is all
  2048 rows of batch `t / 8`; the mask block is the same rows as the activation block, all 2048 columns; the three
  weight matrices and the three bias rows are handed whole at every point.

  Before the launch the host re-types the weights (the identity on the extended reals), gives each bias a leading
  unit axis, and widens each mask bit to a 32-bit word.
-/
import proofs.«100121_j27101243638344_2_alg».proof.Proof.Gen.KernelIdeal.Frame
import proofs.«100121_j27101243638344_2_alg».proof.Proof.Attention
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Cert.CrossAttention
open Idealize.ShloMosaic Idealize.ShloMosaic.TcCoe Idealize.SL.Sem Idealize.ShloMosaic.ValueIdx Idealize.ShloMosaic.StableHlo

variable (m : (ℓ : Loc nD τ sig) → Buf (Elt Ideal) ℓ)

/-! ## The argument arrays -/

abbrev argX (c : Dev nD) : Act := m ((c : Thread nD τ).loc main_arg0)
abbrev argCtx (c : Dev nD) : Act := m ((c : Thread nD τ).loc main_arg1)
abbrev argMask (c : Dev nD) : Msk := m ((c : Thread nD τ).loc main_arg2)
abbrev argWq (c : Dev nD) : Wgt := m ((c : Thread nD τ).loc main_arg3)
abbrev argBq (c : Dev nD) : Row := m ((c : Thread nD τ).loc main_arg4)
abbrev argWk (c : Dev nD) : Wgt := m ((c : Thread nD τ).loc main_arg5)
abbrev argBk (c : Dev nD) : Row := m ((c : Thread nD τ).loc main_arg6)
abbrev argWv (c : Dev nD) : Wgt := m ((c : Thread nD τ).loc main_arg7)
abbrev argBv (c : Dev nD) : Row := m ((c : Thread nD τ).loc main_arg8)

/-! ## The arrays the host writes before the launch -/

theorem wq_array (c : Dev nD) (i : S1024x1024.Idx) : V m c main_v0 i = argWq m c i := by
  have e : V m c main_v0 = (truncf (F := Ideal) .bf16 (m ((c : Thread nD τ).loc main_arg3) : FVec Ideal S1024x1024 .f32) bitsLt_bf16_f32 : FVec Ideal S1024x1024 .bf16) := by
    dsimp only [Gen.V, Gen.hostOps0]; after_results; try rfl
  exact congrFun e i
theorem wk_array (c : Dev nD) (i : S1024x1024.Idx) : V m c main_v1 i = argWk m c i := by
  have e : V m c main_v1 = (truncf (F := Ideal) .bf16 (m ((c : Thread nD τ).loc main_arg5) : FVec Ideal S1024x1024 .f32) bitsLt_bf16_f32 : FVec Ideal S1024x1024 .bf16) := by
    dsimp only [Gen.V, Gen.hostOps0]; after_results; try rfl
  exact congrFun e i
theorem wv_array (c : Dev nD) (i : S1024x1024.Idx) : V m c main_v2 i = argWv m c i := by
  have e : V m c main_v2 = (truncf (F := Ideal) .bf16 (m ((c : Thread nD τ).loc main_arg7) : FVec Ideal S1024x1024 .f32) bitsLt_bf16_f32 : FVec Ideal S1024x1024 .bf16) := by
    dsimp only [Gen.V, Gen.hostOps0]; after_results; try rfl
  exact congrFun e i

theorem bq_array (c : Dev nD) (u : Fin 1) (f : Fin 1024) : V m c main_v3 (ix2 u f) = argBq m c (ix1 f) := by
  have e : V m c main_v3 = (shapeCast S1x1024 (m ((c : Thread nD τ).loc main_arg4) : FVec Ideal S1024 .f32) shapeCasts_S1024_S1x1024 : FVec Ideal S1x1024 .f32) := by
    dsimp only [Gen.V, Gen.hostOps0]; after_results; try rfl
  exact (congrFun e (ix2 u f)).trans (shapeCast_a_1a_apply _ shapeCasts_S1024_S1x1024 u f)
theorem bk_array (c : Dev nD) (u : Fin 1) (f : Fin 1024) : V m c main_v4 (ix2 u f) = argBk m c (ix1 f) := by
  have e : V m c main_v4 = (shapeCast S1x1024 (m ((c : Thread nD τ).loc main_arg6) : FVec Ideal S1024 .f32) shapeCasts_S1024_S1x1024 : FVec Ideal S1x1024 .f32) := by
    dsimp only [Gen.V, Gen.hostOps0]; after_results; try rfl
  exact (congrFun e (ix2 u f)).trans (shapeCast_a_1a_apply _ shapeCasts_S1024_S1x1024 u f)
theorem bv_array (c : Dev nD) (u : Fin 1) (f : Fin 1024) : V m c main_v5 (ix2 u f) = argBv m c (ix1 f) := by
  have e : V m c main_v5 = (shapeCast S1x1024 (m ((c : Thread nD τ).loc main_arg8) : FVec Ideal S1024 .f32) shapeCasts_S1024_S1x1024 : FVec Ideal S1x1024 .f32) := by
    dsimp only [Gen.V, Gen.hostOps0]; after_results; try rfl
  exact (congrFun e (ix2 u f)).trans (shapeCast_a_1a_apply _ shapeCasts_S1024_S1x1024 u f)

theorem mask_array (c : Dev nD) (i : S8x2048x2048.Idx) : V m c main_v6 i = (argMask m c i).setWidth 32 := by
  have e : V m c main_v6 = (extui 32 (m ((c : Thread nD τ).loc main_arg2) : IVec S8x2048x2048 1) natLt_1_32 : IVec S8x2048x2048 32) := by
    dsimp only [Gen.V, Gen.hostOps0]; after_results; try rfl
  exact congrFun e i

/-- Testing the widened word against zero gives the mask bit back. -/
theorem mask_bit (b : BitVec 1) : Scalar.cmpi .ne (b.setWidth 32) 0#32 = b := by
  revert b; decide

/-! ## Batch and rows of a point -/

theorem N64 : cfg0.N = 64 := N_0

/-- The batch of point `t`, and the array row of the tile's row `r`. -/
def batchOf (t : Fin cfg0.N) : Fin 8 := ⟨t.val / 8, by have := t.isLt; have := N64; omega⟩
def rowOf (t : Fin cfg0.N) (r : Fin 256) : Fin 2048 := ⟨256 * (t.val % 8) + r.val, by have := r.isLt; omega⟩

/-! ## The windows' block indices, decided over the 64 points -/

theorem x_idx : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem ctx_idx : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem whole_idx : ∀ t : Fin cfg0.N,
    (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0)
    ∧ (win0_6.index t (0 : Fin 2) = 0 ∧ win0_6.index t (1 : Fin 2) = 0) ∧ (win0_7.index t (0 : Fin 2) = 0 ∧ win0_7.index t (1 : Fin 2) = 0) :=
  (by decide +kernel : ∀ t : Fin grid0.N, _)
theorem mask_idx : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)

/-! ## The input blocks at an entry -/

theorem x_block (c : Dev nD) (t : Fin cfg0.N) (u : Fin 1) (r : Fin 256) (e : Fin 1024) :
    iblk m c 0 t (ix3 u r e) = argX m c (ix3 (batchOf t) (rowOf t r) e) := by
  rw [show argX m c = V m c main_arg0 from (V_main_arg0 m c).symm]
  show V m c main_arg0 (((cfg0.win 0).blk t).view.emb (ix3 u r e)) = _
  refine congrArg (V m c main_arg0) (funext fun a => Fin.ext ?_)
  obtain ⟨e0, e1, e2⟩ := x_idx t
  match a with
  | ⟨0, _⟩ => show win0_0.index t (0 : Fin 3) * 1 + 1 * u.val = t.val / 8; have := u.isLt; omega
  | ⟨1, _⟩ => show win0_0.index t (1 : Fin 3) * 256 + 1 * r.val = 256 * (t.val % 8) + r.val; omega
  | ⟨2, _⟩ => show win0_0.index t (2 : Fin 3) * 1024 + 1 * e.val = e.val; omega

theorem ctx_block (c : Dev nD) (t : Fin cfg0.N) (u : Fin 1) (s : Fin 2048) (e : Fin 1024) :
    iblk m c 1 t (ix3 u s e) = argCtx m c (ix3 (batchOf t) s e) := by
  rw [show argCtx m c = V m c main_arg1 from (V_main_arg1 m c).symm]
  show V m c main_arg1 (((cfg0.win 1).blk t).view.emb (ix3 u s e)) = _
  refine congrArg (V m c main_arg1) (funext fun a => Fin.ext ?_)
  obtain ⟨e0, e1, e2⟩ := ctx_idx t
  match a with
  | ⟨0, _⟩ => show win0_1.index t (0 : Fin 3) * 1 + 1 * u.val = t.val / 8; have := u.isLt; omega
  | ⟨1, _⟩ => show win0_1.index t (1 : Fin 3) * 2048 + 1 * s.val = s.val; omega
  | ⟨2, _⟩ => show win0_1.index t (2 : Fin 3) * 1024 + 1 * e.val = e.val; omega

theorem wq_block (c : Dev nD) (t : Fin cfg0.N) (f e : Fin 1024) : iblk m c 2 t (ix2 f e) = argWq m c (ix2 f e) := by
  rw [← wq_array m c (ix2 f e)]
  show V m c main_v0 (((cfg0.win 2).blk t).view.emb (ix2 f e)) = _
  refine congrArg (V m c main_v0) (funext fun a => Fin.ext ?_)
  obtain ⟨⟨e0, e1⟩, -⟩ := whole_idx t
  match a with
  | ⟨0, _⟩ => show win0_2.index t (0 : Fin 2) * 1024 + 1 * f.val = f.val; omega
  | ⟨1, _⟩ => show win0_2.index t (1 : Fin 2) * 1024 + 1 * e.val = e.val; omega
theorem wk_block (c : Dev nD) (t : Fin cfg0.N) (f e : Fin 1024) : iblk m c 3 t (ix2 f e) = argWk m c (ix2 f e) := by
  rw [← wk_array m c (ix2 f e)]
  show V m c main_v1 (((cfg0.win 3).blk t).view.emb (ix2 f e)) = _
  refine congrArg (V m c main_v1) (funext fun a => Fin.ext ?_)
  obtain ⟨-, ⟨e0, e1⟩, -⟩ := whole_idx t
  match a with
  | ⟨0, _⟩ => show win0_3.index t (0 : Fin 2) * 1024 + 1 * f.val = f.val; omega
  | ⟨1, _⟩ => show win0_3.index t (1 : Fin 2) * 1024 + 1 * e.val = e.val; omega
theorem wv_block (c : Dev nD) (t : Fin cfg0.N) (f e : Fin 1024) : iblk m c 4 t (ix2 f e) = argWv m c (ix2 f e) := by
  rw [← wv_array m c (ix2 f e)]
  show V m c main_v2 (((cfg0.win 4).blk t).view.emb (ix2 f e)) = _
  refine congrArg (V m c main_v2) (funext fun a => Fin.ext ?_)
  obtain ⟨-, -, ⟨e0, e1⟩, -⟩ := whole_idx t
  match a with
  | ⟨0, _⟩ => show win0_4.index t (0 : Fin 2) * 1024 + 1 * f.val = f.val; omega
  | ⟨1, _⟩ => show win0_4.index t (1 : Fin 2) * 1024 + 1 * e.val = e.val; omega

theorem bq_block (c : Dev nD) (t : Fin cfg0.N) (u : Fin 1) (f : Fin 1024) : iblk m c 5 t (ix2 u f) = argBq m c (ix1 f) := by
  rw [← bq_array m c u f]
  show V m c main_v3 (((cfg0.win 5).blk t).view.emb (ix2 u f)) = _
  refine congrArg (V m c main_v3) (funext fun a => Fin.ext ?_)
  obtain ⟨-, -, -, ⟨e0, e1⟩, -⟩ := whole_idx t
  match a with
  | ⟨0, _⟩ => show win0_5.index t (0 : Fin 2) * 1 + 1 * u.val = u.val; omega
  | ⟨1, _⟩ => show win0_5.index t (1 : Fin 2) * 1024 + 1 * f.val = f.val; omega
theorem bk_block (c : Dev nD) (t : Fin cfg0.N) (u : Fin 1) (f : Fin 1024) : iblk m c 6 t (ix2 u f) = argBk m c (ix1 f) := by
  rw [← bk_array m c u f]
  show V m c main_v4 (((cfg0.win 6).blk t).view.emb (ix2 u f)) = _
  refine congrArg (V m c main_v4) (funext fun a => Fin.ext ?_)
  obtain ⟨-, -, -, -, ⟨e0, e1⟩, -⟩ := whole_idx t
  match a with
  | ⟨0, _⟩ => show win0_6.index t (0 : Fin 2) * 1 + 1 * u.val = u.val; omega
  | ⟨1, _⟩ => show win0_6.index t (1 : Fin 2) * 1024 + 1 * f.val = f.val; omega
theorem bv_block (c : Dev nD) (t : Fin cfg0.N) (u : Fin 1) (f : Fin 1024) : iblk m c 7 t (ix2 u f) = argBv m c (ix1 f) := by
  rw [← bv_array m c u f]
  show V m c main_v5 (((cfg0.win 7).blk t).view.emb (ix2 u f)) = _
  refine congrArg (V m c main_v5) (funext fun a => Fin.ext ?_)
  obtain ⟨-, -, -, -, -, e0, e1⟩ := whole_idx t
  match a with
  | ⟨0, _⟩ => show win0_7.index t (0 : Fin 2) * 1 + 1 * u.val = u.val; omega
  | ⟨1, _⟩ => show win0_7.index t (1 : Fin 2) * 1024 + 1 * f.val = f.val; omega

/-- The mask block's word, tested against zero, is the mask bit of the tile's row and the key position. -/
theorem mask_block (c : Dev nD) (t : Fin cfg0.N) (u : Fin 1) (r : Fin 256) (j : Fin 2048) :
    Scalar.cmpi .ne (iblk m c 8 t (ix3 u r j)) 0#32 = argMask m c (ix3 (batchOf t) (rowOf t r) j) := by
  rw [← mask_bit (argMask m c (ix3 (batchOf t) (rowOf t r) j)), ← mask_array m c]
  refine congrArg (fun w : BitVec 32 => Scalar.cmpi .ne w 0#32) ?_
  show V m c main_v6 (((cfg0.win 8).blk t).view.emb (ix3 u r j)) = _
  refine congrArg (V m c main_v6) (funext fun a => Fin.ext ?_)
  obtain ⟨e0, e1, e2⟩ := mask_idx t
  match a with
  | ⟨0, _⟩ => show win0_8.index t (0 : Fin 3) * 1 + 1 * u.val = t.val / 8; have := u.isLt; omega
  | ⟨1, _⟩ => show win0_8.index t (1 : Fin 3) * 256 + 1 * r.val = 256 * (t.val % 8) + r.val; omega
  | ⟨2, _⟩ => show win0_8.index t (2 : Fin 3) * 2048 + 1 * j.val = j.val; omega

end Cert.KernelIdeal.Blocks

end
-- ==== Proof.PointValues.lean ====
/-
  What each grid point leaves in the scratch and writes back, in terms of the argument arrays.

  THE INVARIANT. After point `t` the two scratch buffers hold the key rows and the value rows of batch `t / 8`:
  at the first tile of a batch (`t % 8 = 0`) the body builds them from the batch's context block; at every other
  tile it leaves them as they were, and the point before belongs to the same batch. By induction on the point.

  THE BLOCKS. With the scratch known, the attention block of point `t` is, at row `r` and key position `j`, the
  attention weight of batch `t / 8`, row `256·(t % 8) + r`, position `j`; the output block is that row's weights
  summed against the value rows.
-/
import proofs.«100121_j27101243638344_2_alg».proof.Proof.TileArithmetic
import proofs.«100121_j27101243638344_2_alg».proof.Proof.TilePieces
import proofs.«100121_j27101243638344_2_alg».proof.Proof.InputBlocks

set_option maxRecDepth 16384

noncomputable section

namespace Cert.KernelIdeal.Points

open Cert.KernelIdeal Cert.KernelIdeal.Gen Cert.CrossAttention Cert.KernelIdeal.Blocks Cert.KernelIdeal.Tile Cert.KernelIdeal.Pieces
open Idealize.ShloMosaic Idealize.ShloMosaic.TcCoe Idealize.SL.Sem Idealize.ShloMosaic.ValueIdx
open scoped BigOperators

variable (m : (ℓ : Loc nD τ sig) → Buf (Elt Ideal) ℓ) (c : Dev nD)

/-! ## The key rows and value rows of a batch, as tiles -/

def keyTile (b : Fin 8) : FVec Ideal S2048x1024 .bf16 := fun i => proj (argCtx m c) (argWk m c) (argBk m c) b (i 0) (i 1)
def valueTile (b : Fin 8) : FVec Ideal S2048x1024 .bf16 := fun i => proj (argCtx m c) (argWv m c) (argBv m c) b (i 0) (i 1)

/-- What the first tile of a batch stores: the batch's key rows, and its value rows. -/
theorem keys_of_block (t : Fin cfg0.N) :
    k0_pay4 (F := Ideal) (iblk m c 1 t) (iblk m c 3 t) (iblk m c 6 t) = keyTile m c (batchOf t) := by
  funext i
  obtain ⟨s, f, rfl⟩ : ∃ (s : Fin 2048) (f : Fin 1024), i = ix2 s f := ⟨i 0, i 1, eq_ix2 i⟩
  refine (keyStore_apply (iblk m c 1 t) (iblk m c 3 t) (iblk m c 6 t) s f).trans ?_
  show _ = proj (argCtx m c) (argWk m c) (argBk m c) (batchOf t) s f
  unfold proj
  rw [bk_block]
  refine congrArg (· + _) (Finset.sum_congr rfl fun e _ => ?_)
  rw [ctx_block, wk_block]

theorem values_of_block (t : Fin cfg0.N) :
    k0_pay5 (F := Ideal) (iblk m c 1 t) (iblk m c 4 t) (iblk m c 7 t) = valueTile m c (batchOf t) := by
  funext i
  obtain ⟨s, f, rfl⟩ : ∃ (s : Fin 2048) (f : Fin 1024), i = ix2 s f := ⟨i 0, i 1, eq_ix2 i⟩
  refine (valueStore_apply (iblk m c 1 t) (iblk m c 4 t) (iblk m c 7 t) s f).trans ?_
  show _ = proj (argCtx m c) (argWv m c) (argBv m c) (batchOf t) s f
  unfold proj
  rw [bv_block]
  refine congrArg (· + _) (Finset.sum_congr rfl fun e _ => ?_)
  rw [ctx_block, wv_block]

/-! ## The invariant -/

/-- At the first tile of a batch the scratch is rebuilt. -/
theorem scratch_first (t : Fin cfg0.N) (h0 : t.val % 8 = 0) :
    (outsAt0 m c t.val t.isLt).2.2.1 = keyTile m c (batchOf t) ∧ (outsAt0 m c t.val t.isLt).2.2.2 = valueTile m c (batchOf t) := by
  rw [outsAt0_A m c t h0]
  dsimp only
  rw [keys_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t),
    values_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)]
  exact ⟨keys_of_block m c t, values_of_block m c t⟩

/-- After every point the scratch holds the key rows and value rows of the point's batch: a tile that is not the
    first of its batch leaves the scratch as the point before left it, and shares that point's batch. -/
theorem scratch_holds (n : ℕ) : ∀ h : n < cfg0.N,
    (outsAt0 m c (⟨n, h⟩ : Fin cfg0.N).val (⟨n, h⟩ : Fin cfg0.N).isLt).2.2.1 = keyTile m c (batchOf ⟨n, h⟩)
      ∧ (outsAt0 m c (⟨n, h⟩ : Fin cfg0.N).val (⟨n, h⟩ : Fin cfg0.N).isLt).2.2.2 = valueTile m c (batchOf ⟨n, h⟩) := by
  induction n using Nat.strong_induction_on with
  | _ n ih =>
    intro h
    by_cases h0 : n % 8 = 0
    · exact scratch_first m c ⟨n, h⟩ h0
    · have hlt : n - 1 < cfg0.N := Nat.lt_of_le_of_lt (Nat.sub_le _ _) h
      have hb : batchOf ⟨n - 1, hlt⟩ = batchOf ⟨n, h⟩ := Fin.ext (by show (n - 1) / 8 = n / 8; omega)
      have hp := ih (n - 1) (by omega) hlt
      rw [hb] at hp
      rw [outsAt0_B m c ⟨n, h⟩ h0]
      dsimp only [sout0_B_0, sout0_B_1]
      exact hp

/-- So at a tile that is not the first of its batch, what the point before left is the batch's keys and values. -/
theorem scratch_before (t : Fin cfg0.N) (h0 : ¬t.val % 8 = 0) :
    (outsAt0 m c (t.val - 1) (Nat.lt_of_le_of_lt (Nat.sub_le _ _) t.isLt)).2.2.1 = keyTile m c (batchOf t) ∧ (outsAt0 m c (t.val - 1) (Nat.lt_of_le_of_lt (Nat.sub_le _ _) t.isLt)).2.2.2 = valueTile m c (batchOf t) := by
  have hlt : t.val - 1 < cfg0.N := Nat.lt_of_le_of_lt (Nat.sub_le _ _) t.isLt
  have hb : batchOf ⟨t.val - 1, hlt⟩ = batchOf t := Fin.ext (by show (t.val - 1) / 8 = t.val / 8; omega)
  have hp := scratch_holds m c (t.val - 1) hlt
  rw [hb] at hp
  exact hp

/-! ## The written-back blocks -/

/-- The weights the point computes, whichever case it is in: against the key rows of its batch. -/
def weightsAt (t : Fin cfg0.N) : FVec Ideal S256x2048 .f32 :=
  k0_pay6 (F := Ideal) (iblk m c 0 t) (iblk m c 2 t) (iblk m c 5 t) (keyTile m c (batchOf t)) (iblk m c 8 t)

theorem att_block (t : Fin cfg0.N) : (outsAt0 m c t.val t.isLt).1 = k0_pay1 (F := Ideal) (weightsAt m c t) := by
  by_cases h0 : t.val % 8 = 0
  · rw [outsAt0_A m c t h0]
    dsimp only
    rw [att_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), keys_of_block]
    rfl
  · rw [outsAt0_B m c t h0]
    dsimp only
    rw [att_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      ((outsAt0 m c (t.val - 1) (Nat.lt_of_le_of_lt (Nat.sub_le _ _) t.isLt)).2.2.1) ((outsAt0 m c (t.val - 1) (Nat.lt_of_le_of_lt (Nat.sub_le _ _) t.isLt)).2.2.2), (scratch_before m c t h0).1]
    rfl

theorem out_block (t : Fin cfg0.N) :
    (outsAt0 m c t.val t.isLt).2.1 = k0_pay2 (F := Ideal) (valueTile m c (batchOf t)) (weightsAt m c t) := by
  by_cases h0 : t.val % 8 = 0
  · rw [outsAt0_A m c t h0]
    dsimp only
    rw [out_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), keys_of_block, values_of_block]
    rfl
  · rw [outsAt0_B m c t h0]
    dsimp only
    rw [out_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t)
      ((outsAt0 m c (t.val - 1) (Nat.lt_of_le_of_lt (Nat.sub_le _ _) t.isLt)).2.2.1) ((outsAt0 m c (t.val - 1) (Nat.lt_of_le_of_lt (Nat.sub_le _ _) t.isLt)).2.2.2), (scratch_before m c t h0).1, (scratch_before m c t h0).2]
    rfl

/-! ## The blocks at an entry -/

/-- The query rows of the tile are the query projection of the tile's array rows. -/
theorem query_row (t : Fin cfg0.N) (r : Fin 256) :
    (fun d : Fin 1024 => queryTile (iblk m c 0 t) (iblk m c 2 t) (iblk m c 5 t) (ix2 r d))
      = proj (argX m c) (argWq m c) (argBq m c) (batchOf t) (rowOf t r) := by
  funext d
  rw [queryTile_apply]
  unfold proj
  rw [bq_block]
  refine congrArg (· + _) (Finset.sum_congr rfl fun e _ => ?_)
  rw [x_block, wq_block]

/-- The point's weights at row `r`, key position `j`: the attention weight of that array row. -/
theorem weights_entry (t : Fin cfg0.N) (r : Fin 256) (j : Fin 2048) :
    weightsAt m c t (ix2 r j)
      = att (argX m c) (argCtx m c) (argMask m c) (argWq m c) (argBq m c) (argWk m c) (argBk m c) (batchOf t) (rowOf t r) j := by
  unfold weightsAt
  refine (weights_apply (iblk m c 0 t) (iblk m c 2 t) (iblk m c 5 t) (iblk m c 8 t) (keyTile m c (batchOf t)) r j).trans ?_
  unfold att scores
  refine congrArg (fun s => softmax s j) (funext fun j' => ?_)
  rw [query_row, mask_block]
  rfl

theorem att_entry (t : Fin cfg0.N) (u : Fin 1) (r : Fin 256) (j : Fin 2048) :
    (outsAt0 m c t.val t.isLt).1 (ix3 u r j)
      = att (argX m c) (argCtx m c) (argMask m c) (argWq m c) (argBq m c) (argWk m c) (argBk m c) (batchOf t) (rowOf t r) j := by
  rw [att_block]
  exact (attBlock_apply (weightsAt m c t) u r j).trans (weights_entry m c t r j)

theorem out_entry (t : Fin cfg0.N) (u : Fin 1) (r : Fin 256) (k : Fin 1024) :
    (outsAt0 m c t.val t.isLt).2.1 (ix3 u r k)
      = out (argX m c) (argCtx m c) (argMask m c) (argWq m c) (argBq m c) (argWk m c) (argBk m c) (argWv m c) (argBv m c)
          (batchOf t) (rowOf t r) k := by
  rw [out_block]
  refine (outBlock_apply (valueTile m c (batchOf t)) (weightsAt m c t) u r k).trans ?_
  unfold out
  refine Finset.sum_congr rfl fun j _ => ?_
  rw [weights_entry]
  rfl

end Cert.KernelIdeal.Points

end
-- ==== Proof.KernelArrays.lean ====
/-
  The two result arrays after the run, as whole arrays.

  Point `t` writes back block `(t / 8, t % 8, 0)` of each result: 256 rows of one batch, every column. An entry
  `(u, r, j)` of that block is entry `(t / 8, 256·(t % 8) + r, j)` of the array, and what is written there is the
  attention weight (or the attended value) of exactly that batch, row and column. The 64 blocks tile both arrays —
  entry `(b, i, j)` lies in the block of point `8·b + i / 256` — so each array ends holding the attention of the
  argument arrays everywhere.
-/
import proofs.«100121_j27101243638344_2_alg».proof.Proof.PointValues
import proofs.«100121_j27101243638344_2_alg».proof.Proof.Gen.KernelIdeal.Value

set_option maxRecDepth 16384

noncomputable section

namespace Cert.KernelIdeal.Arrays

open Cert.KernelIdeal Cert.KernelIdeal.Gen Cert.CrossAttention Cert.KernelIdeal.Blocks Cert.KernelIdeal.Points
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The attention weights and the attended values of the argument arrays, as contents of the two result arrays. -/
abbrev attOf (c : Dev nD) : Buf (Elt Ideal) ((c : Thread nD τ).loc main_v7_0) :=
  attArr (argX m c) (argCtx m c) (argMask m c) (argWq m c) (argBq m c) (argWk m c) (argBk m c)
abbrev outOf (c : Dev nD) : Buf (Elt Ideal) ((c : Thread nD τ).loc main_v7_1) :=
  outArr (argX m c) (argCtx m c) (argMask m c) (argWq m c) (argBq m c) (argWk m c) (argBk m c) (argWv m c) (argBv m c)

/-- The result windows' block indices, decided over the 64 points. -/
theorem att_idx : ∀ t : Fin cfg0.N, win0_9.index t (0 : Fin 3) = t.val / 8 ∧ win0_9.index t (1 : Fin 3) = t.val % 8 ∧ win0_9.index t (2 : Fin 3) = 0 :=
  (by decide +kernel : ∀ t : Fin grid0.N, _)
theorem out_idx : ∀ t : Fin cfg0.N, win0_10.index t (0 : Fin 3) = t.val / 8 ∧ win0_10.index t (1 : Fin 3) = t.val % 8 ∧ win0_10.index t (2 : Fin 3) = 0 :=
  (by decide +kernel : ∀ t : Fin grid0.N, _)

/-- Where an entry of point `t`'s block sits in the array. -/
theorem att_emb (t : Fin cfg0.N) (u : Fin 1) (r : Fin 256) (j : Fin 2048) :
    ((cfg0.win 9).blk t).view.emb (ix3 u r j) = ix3 (batchOf t) (rowOf t r) j := by
  funext a; apply Fin.ext
  obtain ⟨e0, e1, e2⟩ := att_idx t
  match a with
  | ⟨0, _⟩ => show win0_9.index t (0 : Fin 3) * 1 + 1 * u.val = t.val / 8; have := u.isLt; omega
  | ⟨1, _⟩ => show win0_9.index t (1 : Fin 3) * 256 + 1 * r.val = 256 * (t.val % 8) + r.val; omega
  | ⟨2, _⟩ => show win0_9.index t (2 : Fin 3) * 2048 + 1 * j.val = j.val; omega
theorem out_emb (t : Fin cfg0.N) (u : Fin 1) (r : Fin 256) (k : Fin 1024) :
    ((cfg0.win 10).blk t).view.emb (ix3 u r k) = ix3 (batchOf t) (rowOf t r) k := by
  funext a; apply Fin.ext
  obtain ⟨e0, e1, e2⟩ := out_idx t
  match a with
  | ⟨0, _⟩ => show win0_10.index t (0 : Fin 3) * 1 + 1 * u.val = t.val / 8; have := u.isLt; omega
  | ⟨1, _⟩ => show win0_10.index t (1 : Fin 3) * 256 + 1 * r.val = 256 * (t.val % 8) + r.val; omega
  | ⟨2, _⟩ => show win0_10.index t (2 : Fin 3) * 1024 + 1 * k.val = k.val; omega

/-- What point `t` writes back is its block of the attention of the argument arrays. -/
theorem att_flushed (c : Dev nD) (t : Fin cfg0.N) :
    (dats m 0 c).flushed 9 t = ((cfg0.win 9).blk t).view.read (Elt Ideal) (attOf m c) := by
  rw [Cert.KernelIdeal.Value.flushed9]
  funext y
  obtain ⟨u, r, j, rfl⟩ : ∃ (u : Fin 1) (r : Fin 256) (j : Fin 2048), y = ix3 u r j := ⟨y 0, y 1, y 2, eq_ix3 y⟩
  show (outsAt0 m c t.val t.isLt).1 (ix3 u r j) = attOf m c (((cfg0.win 9).blk t).view.emb (ix3 u r j))
  rw [att_entry, att_emb]
  rfl
theorem out_flushed (c : Dev nD) (t : Fin cfg0.N) :
    (dats m 0 c).flushed 10 t = ((cfg0.win 10).blk t).view.read (Elt Ideal) (outOf m c) := by
  rw [Cert.KernelIdeal.Value.flushed10]
  funext y
  obtain ⟨u, r, k, rfl⟩ : ∃ (u : Fin 1) (r : Fin 256) (k : Fin 1024), y = ix3 u r k := ⟨y 0, y 1, y 2, eq_ix3 y⟩
  show (outsAt0 m c t.val t.isLt).2.1 (ix3 u r k) = outOf m c (((cfg0.win 10).blk t).view.emb (ix3 u r k))
  rw [out_entry, out_emb]
  rfl

/-- Every entry of the attention array lies in the block of the point of its batch and row tile. -/
theorem att_cover (i : S8x2048x2048.Idx) : ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 2048 := (i 2).isLt
  obtain ⟨t, ht⟩ : ∃ t : Fin cfg0.N, t.val = 8 * (i 0).val + (i 1).val / 256 := ⟨⟨_, by rw [N64]; omega⟩, rfl⟩
  refine ⟨t, flush0_9 t, ?_⟩
  show i ∈ ((View.whole main_v7_0).slice (win0_9.rect t)).set
  rw [View.set_slice_whole, Rect.mem_set_unit]
  obtain ⟨e0, e1, e2⟩ := att_idx t
  intro a
  match a with
  | ⟨0, _⟩ => show win0_9.index t (0 : Fin 3) * 1 ≤ (i 0).val ∧ (i 0).val < win0_9.index t (0 : Fin 3) * 1 + 1; omega
  | ⟨1, _⟩ => show win0_9.index t (1 : Fin 3) * 256 ≤ (i 1).val ∧ (i 1).val < win0_9.index t (1 : Fin 3) * 256 + 256; omega
  | ⟨2, _⟩ => show win0_9.index t (2 : Fin 3) * 2048 ≤ (i 2).val ∧ (i 2).val < win0_9.index t (2 : Fin 3) * 2048 + 2048; omega
theorem out_cover (i : S8x2048x1024.Idx) : ∃ t : Fin cfg0.N, (cfg0.win 10).flush t = true ∧ i ∈ ((cfg0.win 10).blk t).view.set := by
  have h0 : (i 0).val < 8 := (i 0).isLt
  have h1 : (i 1).val < 2048 := (i 1).isLt
  have h2 : (i 2).val < 1024 := (i 2).isLt
  obtain ⟨t, ht⟩ : ∃ t : Fin cfg0.N, t.val = 8 * (i 0).val + (i 1).val / 256 := ⟨⟨_, by rw [N64]; omega⟩, rfl⟩
  refine ⟨t, flush0_10 t, ?_⟩
  show i ∈ ((View.whole main_v7_1).slice (win0_10.rect t)).set
  rw [View.set_slice_whole, Rect.mem_set_unit]
  obtain ⟨e0, e1, e2⟩ := out_idx t
  intro a
  match a with
  | ⟨0, _⟩ => show win0_10.index t (0 : Fin 3) * 1 ≤ (i 0).val ∧ (i 0).val < win0_10.index t (0 : Fin 3) * 1 + 1; omega
  | ⟨1, _⟩ => show win0_10.index t (1 : Fin 3) * 256 ≤ (i 1).val ∧ (i 1).val < win0_10.index t (1 : Fin 3) * 256 + 256; omega
  | ⟨2, _⟩ => show win0_10.index t (2 : Fin 3) * 1024 ≤ (i 2).val ∧ (i 2).val < win0_10.index t (2 : Fin 3) * 1024 + 1024; omega

/-- So both result arrays end holding the attention of the argument arrays. -/
theorem att_final (c : Dev nD) : (dats m 0 c).arrAt 9 cfg0.N = attOf m c :=
  (dats m 0 c).arrAt_eq_of_cover 9 (attOf m c) (fun t _ => att_flushed m c t) att_cover
theorem out_final (c : Dev nD) : (dats m 0 c).arrAt 10 cfg0.N = outOf m c :=
  (dats m 0 c).arrAt_eq_of_cover 10 (outOf m c) (fun t _ => out_flushed m c t) out_cover

/-- The run, read: the attended values, the attention weights, and the nine arguments unchanged. -/
theorem run : θ_run defs (onTc (τ := τ) (main (F := Ideal))) ⟨m, fun _ => 0, ρ⟩ fun r => ∀ c : Dev nD,
      r.2.mem ((c : Thread nD τ).loc main_v7_1) = outOf m c
      ∧ r.2.mem ((c : Thread nD τ).loc main_v7_0) = attOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).2.1.trans (out_final m c), (h c).1.trans (att_final m c), (h c).2.2⟩)
    (Cert.KernelIdeal.Value.run_blocks m ρ)

end Cert.KernelIdeal.Arrays

end
-- ==== Proof.lean ====
/-
  The fused cross-attention kernel computes the attention of its reference, over the extended reals.

  Both programs compute, from activations, a context, three weight matrices with their biases and a boolean mask,

    Q = x·Wqᵀ + bq,  K = ctx·Wkᵀ + bk,  V = ctx·Wvᵀ + bv,
    s = (Q·Kᵀ)/32 with masked entries replaced by −10⁹,  att = softmax over the key axis,  out = att·V,

  and return `(out, att)`. The kernel does it 256 query rows at a time, keeping a batch's K and V in scratch from
  the batch's first tile on; the reference does it on whole arrays. The two spell the same operations in the same
  order on every entry — sums over the same coordinates, the same three float literals, the row maximum from −∞,
  the quotient by the row sum — so the results agree as extended reals without any assumption on the inputs beyond
  what the frames need: no step distributes, cancels or regroups across an infinity.

  `Attention.lean` states the common value; `ReferenceAttention.lean` reads the reference's stages against it;
  `TileArithmetic.lean`, `TilePieces.lean`, `InputBlocks.lean`, `PointValues.lean` and `KernelArrays.lean` read the
  kernel's run against it, tile by tile and then as whole arrays. No rewrite was applied to the kernel when it was
  idealized, so the preservation claim is empty.
-/
import proofs.«100121_j27101243638344_2_alg».proof.Defs
import proofs.«100121_j27101243638344_2_alg».proof.Proof.Gen.Kernel
import proofs.«100121_j27101243638344_2_alg».proof.Proof.Gen.Kernel.Skeleton
import proofs.«100121_j27101243638344_2_alg».proof.Proof.Gen.Kernel.Launch
import proofs.«100121_j27101243638344_2_alg».proof.Proof.Gen.Kernel.Points
import proofs.«100121_j27101243638344_2_alg».proof.Proof.Gen.Kernel.Frame
import proofs.«100121_j27101243638344_2_alg».proof.Proof.Gen.KernelIdeal
import proofs.«100121_j27101243638344_2_alg».proof.Proof.Gen.KernelIdeal.Skeleton
import proofs.«100121_j27101243638344_2_alg».proof.Proof.Gen.KernelIdeal.Launch
import proofs.«100121_j27101243638344_2_alg».proof.Proof.Gen.KernelIdeal.Points
import proofs.«100121_j27101243638344_2_alg».proof.Proof.Gen.KernelIdeal.Frame
import proofs.«100121_j27101243638344_2_alg».proof.Proof.Gen.KernelIdeal.Value
import proofs.«100121_j27101243638344_2_alg».proof.Proof.Gen.ReferenceIdeal.Run
import proofs.«100121_j27101243638344_2_alg».proof.Proof.Gen.ReferenceIdeal.Read
import proofs.«100121_j27101243638344_2_alg».proof.Proof.Gen.ReferenceIdeal
import proofs.«100121_j27101243638344_2_alg».proof.Proof.Gen.Pre_finite_inputs
import proofs.«100121_j27101243638344_2_alg».proof.Proof.ReferenceAttention
import proofs.«100121_j27101243638344_2_alg».proof.Proof.KernelArrays
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the nine arguments, the kernel's two result arrays and the reference's are the
    attention of those arguments: the attended values first, the attention weights second. -/
theorem algebraic : Cert.algebraic_KernelIdeal_ReferenceIdeal := by
  intro m ρ m' ρ' _ hagree
  refine ⟨fun c => Cert.KernelIdeal.Arrays.outOf m c, fun c => Cert.KernelIdeal.Arrays.attOf m c,
    Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8⟩ := hagree c
    rw [Cert.ReferenceIdeal.Read.val_main_v27_eq, Cert.ReferenceIdeal.RefValue.out_eq, a0, a1, a2, a3, a4, a5, a6, a7, a8]
  · obtain ⟨a0, a1, a2, a3, a4, a5, a6, a7, a8⟩ := hagree c
    rw [Cert.ReferenceIdeal.Read.val_main_v26_eq, Cert.ReferenceIdeal.RefValue.att_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
